-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S2000x256 : Shape := ⟨2, ![2000, 256]⟩

abbrev nBuf : Space → Nat
  | .hbm => 65
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x256, .f32⟩
  | .hbm, ⟨55, _⟩ => ⟨S850000x1, .f32⟩
  | .hbm, ⟨56, _⟩ => ⟨S850000x256, .f32⟩
  | .hbm, ⟨57, _⟩ => ⟨S850000x256, .f32⟩
  | .hbm, ⟨58, _⟩ => ⟨S_, .f32⟩
  | .hbm, ⟨59, _⟩ => ⟨S50000x256, .f32⟩
  | .hbm, ⟨60, _⟩ => ⟨S850000x1, .i32⟩
  | .hbm, ⟨61, _⟩ => ⟨S50000x256, .f32⟩
  | .hbm, ⟨62, _⟩ => ⟨S1x256, .f32⟩
  | .hbm, ⟨63, _⟩ => ⟨S1x256, .f32⟩
  | .hbm, ⟨64, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v42) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 130
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000, .i32⟩
  | 70 => ⟨S1x800000, .i32⟩
  | 71 => ⟨S800000, .i32⟩
  | 72 => ⟨S850000, .i32⟩
  | 73 => ⟨S1x800000, .i32⟩
  | 74 => ⟨S800000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S50000x256, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x256, .f32⟩
  | 119 => ⟨S850000x1, .f32⟩
  | 120 => ⟨S850000x256, .f32⟩
  | 121 => ⟨S850000x256, .f32⟩
  | 122 => ⟨S_, .f32⟩
  | 123 => ⟨S50000x256, .f32⟩
  | 124 => ⟨S850000x1, .i32⟩
  | 125 => ⟨S50000x256, .f32⟩
  | 126 => ⟨S1x256, .f32⟩
  | 127 => ⟨S50000x256, .f32⟩
  | _ => ⟨S50000x256, .f32⟩

abbrev hbmTy0_1 (i : Nat) : BufTy := match i % 128 with
  | 0 => ⟨S50000x256, .f32⟩
  | 1 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.GraphSpec.lean ====
/-
  The graph part of the layer, as functions of the edge list. With the self loops appended, edge `e` of the 850000 has a
  source `srcs e` and a target `dsts e`; a target's degree counts the edges that land on it; `dinv` is its inverse square
  root where the degree is positive and zero elsewhere; an edge's weight `norm e` is the product of `dinv` at its two
  (wrapped, clamped) endpoints; and `agg y` sends a table `y` of 50000 rows to the table whose row `n` is the sum, over
  the edges landing on `n`, of the source's row of `y` scaled by the edge's weight.
  The reference's result is `refOut`: `relu (agg (x·W1) + b1) + (agg (x·W2) + b2)`; its run's result term is that
  function of the arguments, by unfolding (`res_eq`).
-/
import proofs.«147583_j16604343566383_2_alg».proof.Proof.RefRun

noncomputable section

namespace Cert.Gcn

open Idealize.ShloMosaic Idealize.ShloMosaic.TcCoe Idealize.SL.Sem Cert.ReferenceIdeal Cert.ReferenceIdeal.Gen

variable {F : FTy → Type} [FloatOps F]

/-- The edges' sources: row 0 of the edge list, then one self loop per node. -/
def srcs (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The edges' targets: row 1 of the edge list, then one self loop per node. -/
def dsts (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A negative node id counts from the end. -/
def wrap (v : IVec S850000 32) : IVec S850000 32 :=
  select (cmpi .slt v (broadcastInDim S850000 ![] bcast_S_S850000 (constantI S_ 32 0#32))) (addi v (broadcastInDim S850000 ![] bcast_S_S850000 (constantI S_ 32 50000#32))) v

/-- A vector over the edges as a one-column table. -/
def col {α : Type} (v : S850000.Idx → α) : S850000x1.Idx → α :=
  broadcastInDim S850000x1 ![0] bcast_S850000_S850000x1_0 v

/-- A node's degree: the number of edges whose target it is. -/
def deg (ei : IVec S2x800000 32) : FVec F S50000 .f32 :=
  Host.scatterAdd scatter_S50000_S850000x1_S850000_n_0_0_1 (broadcastInDim S50000 ![] bcast_S_S50000 (constant S_ .f32 0x00000000#32)) (col (dsts ei)) (broadcastInDim S850000 ![] bcast_S_S850000 (constant S_ .f32 0x3F800000#32))

/-- The inverse square root of the degree where it is positive, zero elsewhere. -/
def dinv (ei : IVec S2x800000 32) : FVec F S50000 .f32 :=
  select (cmpf (F := F) .ogt (deg ei) (broadcastInDim S50000 ![] bcast_S_S50000 (constant S_ .f32 0x00000000#32))) (Host.rsqrt (deg ei)) (broadcastInDim S50000 ![] bcast_S_S50000 (id (constant S_ .f32 0x00000000#32)))

/-- An edge's weight: `dinv` at its source times `dinv` at its target. -/
def norm (ei : IVec S2x800000 32) : FVec F S850000 .f32 :=
  mulf (Host.gather gather_S50000_S850000x1_S850000_n_0_n_n_0_1_1 (dinv ei) (col (wrap (srcs ei)))) (Host.gather gather_S50000_S850000x1_S850000_n_0_n_n_0_1_1 (dinv ei) (col (wrap (dsts ei))))

/-- The weighted neighbourhood sum of a table's rows. -/
def agg (y : FVec F S50000x256 .f32) (ei : IVec S2x800000 32) : FVec F S50000x256 .f32 :=
  Host.scatterAdd scatter_S50000x256_S850000x1_S850000x256_1_0_0_1 (broadcastInDim S50000x256 ![] bcast_S_S50000x256 (constant S_ .f32 0x00000000#32)) (col (dsts ei)) (mulf (Host.gather gather_S50000x256_S850000x1_S850000x256_1_0_n_n_0_1_1256 y (col (wrap (srcs ei)))) (broadcastInDim S850000x256 ![0, 1] bcast_S850000x1_S850000x256_0_1 (col (norm ei))))

/-- A bias vector repeated on every row. -/
def biasRows (b : FVec F S256 .f32) : FVec F S50000x256 .f32 :=
  broadcastInDim S50000x256 ![0, 1] bcast_S1x256_S50000x256_0_1 (broadcastInDim S1x256 ![1] bcast_S256_S1x256_1 b)

/-- The reference: `relu (agg (x·W1) + b1) + (agg (x·W2) + b2)`. -/
def refOut (x : FVec F S50000x256 .f32) (ei : IVec S2x800000 32) (W1 : FVec F S256x256 .f32) (b1 : FVec F S256 .f32)
    (W2 : FVec F S256x256 .f32) (b2 : FVec F S256 .f32) : FVec F S50000x256 .f32 :=
  addf (maximumf (addf (agg (Host.dotGeneral dot_S50000x256_S256x256_S50000x256_1_0_0_1_n_n none x W1) ei) (biasRows b1)) (broadcastInDim S50000x256 ![] bcast_S_S50000x256 (constant S_ .f32 0x00000000#32)))
    (addf (agg (Host.dotGeneral dot_S50000x256_S256x256_S50000x256_1_0_0_1_n_n none x W2) ei) (biasRows b2))

/-- The reference run's result term is `refOut` of the argument arrays. -/
theorem res_eq (m : (ℓ : Loc nD τ sig) → Buf (Elt F) ℓ) (c : Dev nD) :
    Cert.ReferenceIdeal.ValueP.res_main_v95 m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := rfl

end Cert.Gcn

end
-- ==== Proof.FiniteIn.lean ====
/-
  What the precondition gives: it is the conjunction, over the five float arguments, of "every entry's absolute value
  is below +∞". An extended real whose absolute value `max a (-a)` is below +∞ is neither infinity, so it is (the
  coercion of) a real number. The law that joins the two programs needs this of the node features and of the two weight
  matrices (the biases enter both sides the same way and need nothing).
-/
import proofs.«147583_j16604343566383_2_alg».proof.Pre_finite_inputs
import proofs.«147583_j16604343566383_2_alg».proof.Proof.Gen.Pre_finite_inputs
import Idealize.ShloMosaic.PureOps.Ideal.Laws
import Idealize.ShloMosaic.Lib.ReduceAll
import Idealize.ShloMosaic.Lib.ValueIdx

noncomputable section

namespace Cert.Gcn

open Idealize.ShloMosaic Idealize.ShloMosaic.ValueIdx Cert.Pre_finite_inputs

/-- The rank-0 shape has one index. -/
instance subsingleton_scalar_idx : Subsingleton Cert.Pre_finite_inputs.S_.Idx := ⟨fun a b => funext fun d => d.elim0⟩

/-- An extended real whose absolute value compares below the word of +∞ is a real. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  have hlt : max a (-a) < ⊤ := by
    by_contra hn
    have h0 : Ideal.cmp .olt (max a (-a)) ⊤ = 0#1 := by simp [Ideal.cmp, hn]
    rw [h0] at h
    exact absurd h (by decide)
  induction a using EReal.rec with
  | bot => simp at hlt
  | coe r => exact ⟨r, rfl⟩
  | top => simp at hlt

/-- Under the precondition the node features and both weight matrices hold real numbers. -/
theorem finite_of_pre (x : FVec Ideal S50000x256 .f32) (ei : IVec S2x800000 32) (W1 : FVec Ideal S256x256 .f32)
    (b1 : FVec Ideal S256 .f32) (W2 : FVec Ideal S256x256 .f32) (b2 : FVec Ideal S256 .f32)
    (h : fn (F := Ideal) x ei W1 b1 W2 b2 = fun _ => 1#1) :
    (∀ i, ∃ r : ℝ, x i = (r : EReal)) ∧ (∀ i, ∃ r : ℝ, W1 i = (r : EReal)) ∧ (∀ i, ∃ r : ℝ, W2 i = (r : EReal)) := by
  have h0 := congrFun h ix0
  dsimp only [fn, fn_part1] at h0
  obtain ⟨h18, _⟩ := IntOp.andi_eq_one.1 h0
  obtain ⟨h13, h17⟩ := IntOp.andi_eq_one.1 h18
  obtain ⟨h8, _⟩ := IntOp.andi_eq_one.1 h13
  obtain ⟨h3, h7⟩ := IntOp.andi_eq_one.1 h8
  refine ⟨fun i => ?_, fun i => ?_, fun i => ?_⟩
  · exact real_of_abs_lt_inf (x i) (Host.reduce_andi_all _ _ _ _ _ h3 i)
  · exact real_of_abs_lt_inf (W1 i) (Host.reduce_andi_all _ _ _ _ _ h7 i)
  · exact real_of_abs_lt_inf (W2 i) (Host.reduce_andi_all _ _ _ _ _ h17 i)

end Cert.Gcn

end
-- ==== Proof.TailSpec.lean ====
/-
  The dense tail of the layer as one function of whole arrays: for an aggregate `A` (rows × 256), weights `W1`, `W2`
  (256 × 256) and bias rows `b1`, `b2` (1 × 256), entry `(n, j)` is
      max (∑ₖ A[n,k]·W1[k,j] + b1[j]) 0  +  (∑ₖ A[n,k]·W2[k,j] + b2[j])
  on the extended reals. The row count is a parameter, so that one block of rows and the whole array are instances of
  the same function.
-/
import Idealize.ShloMosaic.PureOps.Ideal
import Idealize.ShloMosaic.Lib.ValueIdx

noncomputable section

namespace Cert.Gcn

open Idealize.ShloMosaic Idealize.ShloMosaic.ValueIdx

/-- `relu (A·W1 + b1) + (A·W2 + b2)`, entry by entry. -/
def tail {R : Nat} (A : (⟨2, ![R, 256]⟩ : Shape).Idx → EReal) (W1 W2 : (⟨2, ![256, 256]⟩ : Shape).Idx → EReal)
    (b1 b2 : (⟨2, ![1, 256]⟩ : Shape).Idx → EReal) : (⟨2, ![R, 256]⟩ : Shape).Idx → EReal :=
  fun i => max ((∑ k : Fin 256, A (ix2 (i 0) k) * W1 (ix2 k (i 1))) + b1 (ix2 0 (i 1))) 0
    + ((∑ k : Fin 256, A (ix2 (i 0) k) * W2 (ix2 k (i 1))) + b2 (ix2 0 (i 1)))

theorem tail_apply {R : Nat} (A : (⟨2, ![R, 256]⟩ : Shape).Idx → EReal) (W1 W2 : (⟨2, ![256, 256]⟩ : Shape).Idx → EReal)
    (b1 b2 : (⟨2, ![1, 256]⟩ : Shape).Idx → EReal) (n : Fin R) (j : Fin 256) :
    tail A W1 W2 b1 b2 (ix2 n j) = max ((∑ k : Fin 256, A (ix2 n k) * W1 (ix2 k j)) + b1 (ix2 0 j)) 0
      + ((∑ k : Fin 256, A (ix2 n k) * W2 (ix2 k j)) + b2 (ix2 0 j)) := rfl

end Cert.Gcn

end
-- ==== Proof.LibRowGatherScatter.lean ====
/-
  A ROW GATHER AND A ROW SCATTER-ADD, READ AT AN INDEX.

  Two host-side indexing operations on a matrix whose rows are addressed by a column of integer row numbers:

  * the gather `x[idx]` of `x : [N, C]` at `idx : [E, 1]`: result row `e` is operand row `idx[e, 0]`, the row number
    read signed and CLAMPED into `[0, N − 1]` (`rowGatherDims`, `gather_rows_apply`); and its rank-1 companion, the
    gather of a flat `x : [N]` at the same kind of index column (`takeRowDims`, `gather_take1_apply`);

  * the segment sum of update rows `upd : [E, C]` by segment numbers `seg : [E, 1]` into `[N, C]`: an accumulating
    scatter in which update row `e` is added onto operand row `seg[e, 0]`, the number read signed and NOT clamped — an
    update whose number is outside `[0, N)` is dropped —, the column kept (`rowScatterDims`, `rowScatter_resultIdx`,
    `hostScatterAdd_rows_apply`). At the exact instance (extended reals) the result at `(n, k)` is the operand's
    element plus the sum, over the update rows `e` whose number is `n`, of `upd[e, k]`.

  Both are statements about the dimension numbers alone: the gather lemma holds for any element type, the scatter
  lemma for the exact accumulating scatter. Nothing here mentions a program.
-/
import Idealize.ShloMosaic.PureOps.Ideal
import Idealize.ShloMosaic.Lib.ValueIdx

noncomputable section

open scoped BigOperators

namespace Idealize.ShloMosaic.RowGatherScatter

open Idealize.ShloMosaic Idealize.ShloMosaic.ValueIdx

/-- An axis of a rank-2 shape is the first or the second. -/
theorem fin2_cases (a : Fin 2) : a = 0 ∨ a = 1 := by
  rcases a with ⟨v, hv⟩
  interval_cases v
  · exact Or.inl rfl
  · exact Or.inr rfl

/-! ## A row gather: `x[idx]` of a matrix at a column of row numbers

For `x : [N, C]` and integer row numbers `idx : [E, 1]`, `x[idx[:, 0]]` is a gather whose slices are whole rows:
offset_dims `[1]` (the result's column axis is the slice's), collapsed_slice_dims `[0]` (the operand's row axis has
slice size 1 and disappears), start_index_map `[0]` (the one component of a start index is a row number),
index_vector_dim `1` and slice_sizes `[1, C]`. Result element `(e, j)` is the operand at row `idx[e, 0]` — read as
a signed integer and clamped into `[0, N − 1]`, as a gather clamps every start index — and column `j`. -/

section Gather
variable {α : Type}

/-- Those dimension numbers for an operand `[N, C]`, start indices `[E, 1]` and result `[E, C]`; their conditions
    `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand at row `idx[e, 0]` (signed, clamped into `[0, N − 1]`) and
    column `j`. On the row axis the operand coordinate is the clamped start alone (the axis is collapsed: no offset,
    and there are no batching axes); on the column axis the start is `0` (the axis is not in the start index map)
    and the offset is the result's column coordinate. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N E C wf) x idx (ix2 e j)
      = x (ix2 ⟨min (idx (ix2 e 0)).toInt.toNat (N - 1), by omega⟩ j) := by
  unfold Host.gather
  congr 1
  funext a
  refine Fin.ext ?_
  show (rowGatherDims N E C wf).start (ix2 e j) idx a + (rowGatherDims N E C wf).batchCoord (ix2 e j) a
    + (rowGatherDims N E C wf).offCoord (ix2 e j) a = _
  rw [GatherDims.batchCoord_eq_zero _ _ _ List.not_mem_nil]
  rcases fin2_cases a with rfl | rfl
  · -- the row axis: collapsed, so no offset; the start is the clamped row number
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e j) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · -- the column axis: not a start-index axis, so the start is 0; the offset is the result's column
    have h1 : (1 : Fin 2) ∉ (rowGatherDims N E C wf).startIndexMap := by
      show (1 : Fin 2) ∉ ([0] : List (Fin 2)); decide
    have hk : (1 : Fin 2) ∈ (rowGatherDims N E C wf).sKept := by
      rw [GatherDims.mem_sKept]
      show (1 : Fin 2) ∉ ([0] : List (Fin 2)) ∧ (1 : Fin 2) ∉ ([] : List (Fin 2)); decide
    unfold GatherDims.start GatherDims.offCoord
    rw [dif_neg h1, dif_pos hk]
    simp only [Nat.zero_add]
    rfl

end Gather

/-! ## A row scatter-add: a segment sum of update rows into a matrix

For updates `upd : [E, C]` and integer segment numbers `seg : [E, 1]`, the segment sum into `[N, C]` is an
accumulating scatter whose windows are whole rows: update_window_dims `[1]` (the updates' column axis is the window's),
inserted_window_dims `[0]` (the operand's row axis has window size 1), scatter_dims_to_operand_dims `[0]` (the one
component of a scatter index is a row number) and index_vector_dim `1`. Update element `(e, j)` lands on operand
element `(seg[e, 0], j)` when that row number, read signed, is in `[0, N)`, and nowhere otherwise. -/

section Scatter

/-- Those dimension numbers for an operand `[N, C]`, scatter indices `[E, 1]` and updates `[E, C]`; their conditions
    `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the segment number of the update's row, read signed. -/
theorem rowScatter_start0 (idx : IVec ⟨2, ![E, 1]⟩ w) (e : Fin E) (j : Fin C) :
    (rowScatterDims N E C wf).start (ix2 e j) idx (0 : Fin 2) = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e j)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis (not named by the scatter-dims map) the window starts at `0`. -/
theorem rowScatter_start1 (idx : IVec ⟨2, ![E, 1]⟩ w) (e : Fin E) (j : Fin C) :
    (rowScatterDims N E C wf).start (ix2 e j) idx (1 : Fin 2) = 0 := by
  unfold ScatterDims.start
  rw [dif_neg (show (1 : Fin 2) ∉ ([0] : List (Fin 2)) by decide)]

/-- The row axis is an inserted window axis: its window coordinate is `0`. -/
theorem rowScatter_window0 (e : Fin E) (j : Fin C) :
    (rowScatterDims N E C wf).window (ix2 e j) (0 : Fin 2) = 0 := by
  unfold ScatterDims.window
  rw [dif_neg]
  show (0 : Fin 2) ∉ (List.finRange 2).filter (· ∉ ([0] : List (Fin 2)))
  decide

/-- The column axis carries the updates' window axis: its window coordinate is the update's column. -/
theorem rowScatter_window1 (e : Fin E) (j : Fin C) :
    (rowScatterDims N E C wf).window (ix2 e j) (1 : Fin 2) = j.val := by
  unfold ScatterDims.window
  have hk : (1 : Fin 2) ∈ (rowScatterDims N E C wf).sKept := by
    show (1 : Fin 2) ∈ (List.finRange 2).filter (· ∉ ([0] : List (Fin 2)))
    decide
  rw [dif_pos hk]
  rfl

/-- WHERE AN UPDATE LANDS: update element `(e, j)` lands on operand element `(n, k)` exactly when its row's segment
    number, read signed, IS `n` and the columns agree. (A number outside `[0, N)` equals no `n : Fin N`: the update is
    dropped.) The landing index is start plus window coordinate on each axis — `seg[e, 0] + 0` on rows, `0 + j` on
    columns — provided both are in range. -/
theorem rowScatter_resultIdx (idx : IVec ⟨2, ![E, 1]⟩ w) (e : Fin E) (j : Fin C) (n : Fin N) (k : Fin C) :
    (rowScatterDims N E C wf).resultIdx? (ix2 e j) idx = some (ix2 n k)
      ↔ ((idx (ix2 e 0)).toInt = (n.val : Int) ∧ j = k) := by
  have hs0 := rowScatter_start0 wf idx e j
  have hs1 := rowScatter_start1 wf idx e j
  have hw0 := rowScatter_window0 wf e j
  have hw1 := rowScatter_window1 wf e j
  have hn : n.val < N := n.isLt
  have hj : j.val < C := j.isLt
  unfold ScatterDims.resultIdx?
  constructor
  · intro h
    split at h
    · rename_i hall
      have hf := Option.some.inj h
      have h0 := congrArg Fin.val (congrFun hf (0 : Fin 2))
      have h1 := congrArg Fin.val (congrFun hf (1 : Fin 2))
      have ha0 := (hall (0 : Fin 2)).1
      change ((rowScatterDims N E C wf).start (ix2 e j) idx (0 : Fin 2)
        + ((rowScatterDims N E C wf).window (ix2 e j) (0 : Fin 2) : Int)).toNat = n.val at h0
      change ((rowScatterDims N E C wf).start (ix2 e j) idx (1 : Fin 2)
        + ((rowScatterDims N E C wf).window (ix2 e j) (1 : Fin 2) : Int)).toNat = k.val at h1
      rw [hs0, hw0] at h0 ha0
      rw [hs1, hw1] at h1
      refine ⟨by omega, Fin.ext (by omega)⟩
    · exact absurd h (by simp)
  · rintro ⟨hz, rfl⟩
    have hall : ∀ a, 0 ≤ (rowScatterDims N E C wf).start (ix2 e j) idx a + ((rowScatterDims N E C wf).window (ix2 e j) a : Int)
        ∧ (rowScatterDims N E C wf).start (ix2 e j) idx a + ((rowScatterDims N E C wf).window (ix2 e j) a : Int)
          < ((⟨2, ![N, C]⟩ : Shape).size a : Int) := by
      intro a
      rcases fin2_cases a with rfl | rfl
      · rw [hs0, hw0, hz]
        show (0 : Int) ≤ (n.val : Int) + ((0 : Nat) : Int) ∧ (n.val : Int) + ((0 : Nat) : Int) < (N : Int)
        omega
      · rw [hs1, hw1]
        show (0 : Int) ≤ 0 + (j.val : Int) ∧ 0 + (j.val : Int) < (C : Int)
        omega
    rw [dif_pos hall]
    congr 1
    funext a
    refine Fin.ext ?_
    rcases fin2_cases a with rfl | rfl
    · show ((rowScatterDims N E C wf).start (ix2 e j) idx (0 : Fin 2)
        + ((rowScatterDims N E C wf).window (ix2 e j) (0 : Fin 2) : Int)).toNat = n.val
      rw [hs0, hw0, hz]; omega
    · show ((rowScatterDims N E C wf).start (ix2 e j) idx (1 : Fin 2)
        + ((rowScatterDims N E C wf).window (ix2 e j) (1 : Fin 2) : Int)).toNat = j.val
      rw [hs1, hw1]; omega

/-- THE ROW SCATTER-ADD READ AT `(n, k)`: the operand's element plus the sum over the update rows whose segment
    number is `n` of their column-`k` element. The sum over all update elements that land on `(n, k)` is split by
    update row and column; within a row only column `k` can land there, and it does iff the row's number is `n`. -/
theorem hostScatterAdd_rows_apply (x0 : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x0 idx upd (ix2 n k)
      = x0 (ix2 n k) + ∑ e : Fin E, if (idx (ix2 e 0)).toInt = (n.val : Int) then upd (ix2 e k) else 0 := by
  unfold Ideal.hostScatterAdd
  congr 1
  rw [Finset.sum_filter, sum_idx2]
  refine Finset.sum_congr rfl (fun e _ => ?_)
  simp only [rowScatter_resultIdx]
  by_cases hz : (idx (ix2 e 0)).toInt = (n.val : Int)
  · simp only [hz, true_and, if_true]
    rw [Finset.sum_ite_eq']
    simp
  · simp [hz]

end Scatter

/-! ## The rank-1 companion: a flat array gathered at a column of positions -/

section Take1
variable {α : Type}

/-- The dimension numbers of `x[idx[:, 0]]` for a flat operand `[N]`, start indices `[E, 1]` and result `[E]`: no
    offset axes, the operand's one axis collapsed, the one component of a start index a position, index_vector_dim
    `1`, slice size `1`. -/
abbrev takeRowDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at position `idx[e, 0]`, read signed and clamped into `[0, N − 1]`. -/
theorem gather_take1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (takeRowDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (takeRowDims N E wf).start (ix1 e) idx 0 + (takeRowDims N E wf).batchCoord (ix1 e) 0
    + (takeRowDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeRowDims N E wf).startIndexMap from List.mem_singleton.mpr rfl)]
  have hsi : (takeRowDims N E wf).siIdx (ix1 e) ⟨List.idxOf (0 : Fin 1) (takeRowDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Take1

end Idealize.ShloMosaic.RowGatherScatter

end
-- ==== Proof.GraphCols.lean ====
/-
  Layout readings for the graph pieces: a vector over the edges seen as a one-column table, that column repeated over the
  256 feature columns, a bias vector repeated over the rows — each read at an entry — and the host's matrix product read at
  an entry as the sum over the contracted coordinate.
-/
import proofs.«147583_j16604343566383_2_alg».proof.Proof.GraphSpec
import proofs.«147583_j16604343566383_2_alg».proof.Proof.LibRowGatherScatter
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx Idealize.ShloMosaic.RowGatherScatter
open Cert.ReferenceIdeal Cert.ReferenceIdeal.Gen

/-- A one-column table read at a row is the vector there. -/
theorem col_apply {α : Type} (v : S850000.Idx → α) (e : Fin 850000) : col v (ix2 e 0) = v (ix1 e) := by
  unfold col
  refine broadcastInDim_apply _ _ _ _ (ix1 e) (fun a => ?_)
  match a with
  | ⟨0, _⟩ => rfl

/-- A one-column table repeated over 256 columns reads, at row `e`, the vector there. -/
theorem spread_apply {α : Type} (v : S850000.Idx → α) (e : Fin 850000) (k : Fin 256) :
    broadcastInDim S850000x256 ![0, 1] bcast_S850000x1_S850000x256_0_1 (col v) (ix2 e k) = v (ix1 e) := by
  refine (broadcastInDim_apply _ _ _ _ (ix2 e (0 : Fin 1)) (fun a => ?_)).trans (col_apply v e)
  match a with
  | ⟨0, _⟩ => rfl
  | ⟨1, _⟩ => rfl

/-- A bias repeated on every row reads, at column `j`, the bias there. -/
theorem biasRows_apply (b : FVec Ideal S256 .f32) (n : Fin 50000) (j : Fin 256) :
    biasRows (F := Ideal) b (ix2 n j) = b (ix1 j) := by
  unfold biasRows
  refine (broadcastInDim_apply _ _ _ _ (ix2 (0 : Fin 1) j) (fun a => ?_)).trans
    (broadcastInDim_apply _ _ _ _ (ix1 j) (fun a => ?_))
  · match a with
    | ⟨0, _⟩ => rfl
    | ⟨1, _⟩ => rfl
  · match a with
    | ⟨0, _⟩ => rfl

/-- The host's matrix product read at entry `(p, j)`: the sum over the contracted coordinate. -/
theorem dot_apply (x : FVec Ideal S50000x256 .f32) (W : FVec Ideal S256x256 .f32) (p : Fin 50000) (j : Fin 256) :
    Host.dotGeneral (F := Ideal) dot_S50000x256_S256x256_S50000x256_1_0_0_1_n_n none x W (ix2 p j)
      = ∑ k : Fin 256, x (ix2 p k) * W (ix2 k j) := by
  show FloatOps.dotGeneral dot_S50000x256_S256x256_S50000x256_1_0_0_1_n_n none _ x W (ix2 p j) = _
  rw [Ideal.dotGeneral_apply,
    ← Equiv.sum_comp (contrEquiv1 dot_S50000x256_S256x256_S50000x256_1_0_0_1_n_n 256 rfl rfl).symm]
  refine Finset.sum_congr rfl fun c _ => ?_
  have c2 := contrEquiv1_symm_val dot_S50000x256_S256x256_S50000x256_1_0_0_1_n_n 256 rfl rfl c
  have l2 : dot_S50000x256_S256x256_S50000x256_1_0_0_1_n_n.lhsIdx (ix2 p j)
      ((contrEquiv1 _ 256 rfl rfl).symm c) = ix2 p c := by
    funext ax; apply Fin.ext
    match ax with
    | ⟨0, _⟩ => simp [DotDims.lhsIdx, dot_S50000x256_S256x256_S50000x256_1_0_0_1_n_n]; rfl
    | ⟨1, _⟩ => simp [DotDims.lhsIdx, dot_S50000x256_S256x256_S50000x256_1_0_0_1_n_n]; exact c2
  have r2 : dot_S50000x256_S256x256_S50000x256_1_0_0_1_n_n.rhsIdx (ix2 p j)
      ((contrEquiv1 _ 256 rfl rfl).symm c) = ix2 c j := by
    funext ax; apply Fin.ext
    match ax with
    | ⟨0, _⟩ => simp [DotDims.rhsIdx, dot_S50000x256_S256x256_S50000x256_1_0_0_1_n_n]; exact c2
    | ⟨1, _⟩ => simp [DotDims.rhsIdx, dot_S50000x256_S256x256_S50000x256_1_0_0_1_n_n]; rfl
  rw [l2, r2]

end Cert.Gcn

end
-- ==== Proof.GraphFinite.lean ====
/-
  Every edge weight is a real number. A weight is a product of two values of `dinv`, and `dinv` is `1/√d` at a positive real
  degree `d` and `0` at every other value a degree could take (in particular `1/√(+∞) = 0`), so it is a real number whatever
  the degree is: nothing has to be known about the degrees themselves.
-/
import proofs.«147583_j16604343566383_2_alg».proof.Proof.GraphSpec
import Idealize.ShloMosaic.Lib.ValueIdx
import Idealize.ShloMosaic.PureOps.Ideal.Laws

noncomputable section

namespace Cert.Gcn

open Idealize.ShloMosaic Idealize.ShloMosaic.ValueIdx
open Cert.ReferenceIdeal Cert.ReferenceIdeal.Gen

/-- For any value `d` a degree could take: `1/√d` where `d` is positive and `0` elsewhere is a real number. -/
theorem inv_sqrt_real (d : EReal) : ∃ r : ℝ, Scalar.select (Ideal.cmp .ogt d 0) (Ideal.rsqrt d) 0 = (r : EReal) := by
  by_cases h : (0 : EReal) < d
  · have hc : Ideal.cmp .ogt d 0 = 1#1 := by simp [Ideal.cmp, h]
    rw [hc, select_one]
    induction d using EReal.rec with
    | bot => exact absurd h (by simp)
    | coe r =>
      have hr : (0 : ℝ) < r := by exact_mod_cast h
      refine ⟨(Real.sqrt r)⁻¹, ?_⟩
      rw [Ideal.rsqrt_coe, if_neg (not_lt.2 hr.le), if_neg hr.ne']
    | top => exact ⟨0, by rw [Ideal.rsqrt_top]; rfl⟩
  · have hc : Ideal.cmp .ogt d 0 = 0#1 := by simp [Ideal.cmp, h]
    rw [hc, select_zero]
    exact ⟨0, rfl⟩

/-- A guarded inverse square root, read at an entry. -/
theorem select_gt_rsqrt_apply (D Z Z' : FVec Ideal S50000 .f32) (i : S50000.Idx) :
    select (cmpf (F := Ideal) .ogt D Z) (Host.rsqrt D) Z' i
      = Scalar.select (Ideal.cmp .ogt (D i) (Z i)) (Ideal.rsqrt (D i)) (Z' i) := rfl

/-- The vector of zeros over the nodes reads zero. -/
theorem zeros_nodes (i : S50000.Idx) :
    broadcastInDim S50000 ![] bcast_S_S50000 (constant (F := Ideal) S_ .f32 0x00000000#32) i = (0 : EReal) := by
  simp only [broadcastInDim, constant, Ideal.ofBits_def, Ideal.ofBits_zero_f32]

/-- The same vector of zeros, its scalar passed through a change of format that changes nothing. -/
theorem zeros_nodes' (i : S50000.Idx) :
    broadcastInDim S50000 ![] bcast_S_S50000 (id (constant (F := Ideal) S_ .f32 0x00000000#32)) i = (0 : EReal) := by
  simp only [broadcastInDim, constant, id, Ideal.ofBits_def, Ideal.ofBits_zero_f32]

/-- `dinv` holds real numbers, whatever the degree. -/
theorem dinv_real (ei : IVec S2x800000 32) (i : S50000.Idx) : ∃ r : ℝ, dinv (F := Ideal) ei i = (r : EReal) := by
  unfold dinv
  generalize deg (F := Ideal) ei = D
  rw [select_gt_rsqrt_apply, zeros_nodes, zeros_nodes']
  exact inv_sqrt_real (D i)

/-- A product of two gathers of one vector, read at an entry. -/
theorem gather_mul_apply (g : GatherDims S50000 S850000x1 S850000) (Dv : FVec Ideal S50000 .f32) (i1 i2 : IVec S850000x1 32)
    (j : S850000.Idx) :
    mulf (F := Ideal) (Host.gather g Dv i1) (Host.gather g Dv i2) j = Dv (g.operandIdx j i1) * Dv (g.operandIdx j i2) := rfl

/-- Every edge weight is a real number: a product of two values of `dinv`. -/
theorem norm_real (ei : IVec S2x800000 32) (e : Fin 850000) : ∃ r : ℝ, norm (F := Ideal) ei (ix1 e) = (r : EReal) := by
  unfold norm
  have hD := dinv_real ei
  generalize dinv (F := Ideal) ei = Dv at hD ⊢
  rw [gather_mul_apply]
  obtain ⟨r1, h1⟩ := hD (gather_S50000_S850000x1_S850000_n_0_n_n_0_1_1.operandIdx (ix1 e) (col (wrap (srcs ei))))
  obtain ⟨r2, h2⟩ := hD (gather_S50000_S850000x1_S850000_n_0_n_n_0_1_1.operandIdx (ix1 e) (col (wrap (dsts ei))))
  exact ⟨r1 * r2, (congrArg₂ (· * ·) h1 h2).trans (EReal.coe_mul r1 r2).symm⟩

end Cert.Gcn

end
-- ==== Proof.AggLinear.lean ====
/-
  The one algebraic law of the certificate, over the reals inside the extended reals: a weighted sum of rows commutes
  with a matrix product. For edges `e` (those with `hit e` land on the row in question), rows `a e` of finite numbers, a
  column `w` of finite numbers and finite weights `ν e`,
      ∑ₑ [hit e] (∑ₖ a e k · w k) · ν e   =   ∑ₖ (∑ₑ [hit e] a e k · ν e) · w k.
  Both sides are finite sums of products of reals, so each is the coercion of a real, and over the reals the identity is
  distributivity and an exchange of the two sums. (With an infinite entry the two sides can differ: the law needs finiteness.)
-/
import Mathlib.Data.EReal.Basic
import Mathlib.Algebra.BigOperators.Ring.Finset
import Mathlib.Algebra.BigOperators.Group.Finset.Sigma
import Mathlib.Tactic.Ring

namespace Cert.Gcn

open Finset

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: scale-then-multiply is multiply-then-scale, summed over the edges that hit. -/
theorem agg_linear_real {E K : Type*} [Fintype E] [Fintype K] (hit : E → Prop) [DecidablePred hit]
    (a : E → K → ℝ) (w : K → ℝ) (ν : E → ℝ) :
    (∑ e, if hit e then (∑ k, a e k * w k) * ν e else 0) = ∑ k, (∑ e, if hit e then a e k * ν e else 0) * w k := by
  simp only [Finset.sum_mul]
  rw [Finset.sum_comm]
  refine Finset.sum_congr rfl fun e _ => ?_
  by_cases h : hit e
  · simp only [h, if_true]
    refine Finset.sum_congr rfl fun k _ => ?_
    ring
  · simp only [h, if_false, zero_mul, Finset.sum_const_zero]

/-- The same inside the extended reals, each side starting from the zero the sums are added to. -/
theorem agg_linear {E K : Type*} [Fintype E] [Fintype K] (hit : E → Prop) [DecidablePred hit]
    (a : E → K → ℝ) (w : K → ℝ) (ν : E → ℝ) :
    (0 : EReal) + ∑ e, (if hit e then (∑ k, (a e k : EReal) * (w k : EReal)) * (ν e : EReal) else 0)
      = ∑ k, ((0 : EReal) + ∑ e, (if hit e then (a e k : EReal) * (ν e : EReal) else 0)) * (w k : EReal) := by
  have hl : ∀ e, (if hit e then (∑ k, (a e k : EReal) * (w k : EReal)) * (ν e : EReal) else 0)
      = (((if hit e then (∑ k, a e k * w k) * ν e else 0) : ℝ) : EReal) := by
    intro e
    by_cases h : hit e
    · simp only [h, if_true, EReal.coe_mul, coe_sum]
    · simp only [h, if_false, EReal.coe_zero]
  have hr : ∀ k e, (if hit e then (a e k : EReal) * (ν e : EReal) else 0)
      = (((if hit e then a e k * ν e else 0) : ℝ) : EReal) := by
    intro k e
    by_cases h : hit e
    · simp only [h, if_true, EReal.coe_mul]
    · simp only [h, if_false, EReal.coe_zero]
  have hR : ∀ k, ((0 : EReal) + ∑ e, (if hit e then (a e k : EReal) * (ν e : EReal) else 0)) * (w k : EReal)
      = (((∑ e, if hit e then a e k * ν e else 0) * w k : ℝ) : EReal) := by
    intro k
    rw [zero_add, EReal.coe_mul, coe_sum]
    exact congrArg (· * (w k : EReal)) (Finset.sum_congr rfl fun e _ => hr k e)
  rw [zero_add, Finset.sum_congr rfl (fun e _ => hl e), Finset.sum_congr rfl (fun k _ => hR k), ← coe_sum, ← coe_sum,
    agg_linear_real]

end Cert.Gcn
-- ==== Proof.LibRowAggregate.lean ====
/-
  AGGREGATING ROWS, AND THE LAW "AGGREGATE OF A PRODUCT = PRODUCT OF THE AGGREGATE".

  The composite that a weighted neighbourhood sum lowers to: gather rows of a table `y : [N, C]` at row numbers
  `gidx : [E, 1]`, scale them entrywise by `nu : [E, C]`, and add them into rows of `x0 : [N, C]` chosen by segment numbers
  `sidx : [E, 1]`. Read at `(n, k)` (`rows_aggregate_apply`) it is
      x0[n, k] + ∑ₑ [sidx[e] = n] · y[clamp(gidx[e]), k] · nu[e, k],
  the gathered row number clamped into `[0, N − 1]`, the segment number read signed and unclamped.

  The law (`rows_aggregate_dot`): when the table is a matrix product `y = x · W` of FINITE entries, the scaling does not
  depend on the column (`nu[e, ·] = ν e`, a real) and the accumulation starts from zero, aggregating the rows of `x · W`
  is aggregating the rows of `x` and then multiplying by `W`:
      agg(x · W)[n, j] = ∑ₖ agg(x)[n, k] · W[k, j].
  Both sides are finite sums of products of reals; the identity is distributivity and an exchange of the sums over the
  edges and over the contracted axis.

  All sizes are variables: nothing here mentions a program.
-/
import proofs.«147583_j16604343566383_2_alg».proof.Proof.LibRowGatherScatter
import proofs.«147583_j16604343566383_2_alg».proof.Proof.AggLinear
import Idealize.ShloMosaic.PureOps.Ideal
import Idealize.ShloMosaic.PureOps.Ideal.Laws
import Idealize.ShloMosaic.Lib.ValueIdx

noncomputable section

open scoped BigOperators

namespace Idealize.ShloMosaic.RowGatherScatter

open Idealize.ShloMosaic Idealize.ShloMosaic.ValueIdx

/-- THE ROW AGGREGATE READ AT `(n, k)`: the start value plus, over the update rows `e` whose segment number is `n`, the
    gathered row's entry (row `gidx[e, 0]` clamped, column `k`) times the scale `nu[e, k]`. The scatter-add read at an
    index, with each update entry read as the product of the gathered entry and the scale. -/
theorem rows_aggregate_apply {N E C w : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (x0 y : FVec Ideal ⟨2, ![N, C]⟩ .f32) (gidx sidx : IVec ⟨2, ![E, 1]⟩ w) (nu : FVec Ideal ⟨2, ![E, C]⟩ .f32)
    (n : Fin N) (k : Fin C) :
    Host.scatterAdd (F := Ideal) (rowScatterDims N E C wfS) x0 sidx
        (mulf (F := Ideal) (Host.gather (rowGatherDims N E C wfG) y gidx) nu) (ix2 n k)
      = x0 (ix2 n k) + ∑ e : Fin E, if (sidx (ix2 e 0)).toInt = (n.val : Int)
          then y (ix2 ⟨min (gidx (ix2 e 0)).toInt.toNat (N - 1), by omega⟩ k) * nu (ix2 e k) else 0 := by
  refine (hostScatterAdd_rows_apply wfS x0 sidx
    (mulf (F := Ideal) (Host.gather (rowGatherDims N E C wfG) y gidx) nu) n k).trans ?_
  congr 1
  refine Finset.sum_congr rfl fun e _ => ?_
  rw [mulf_apply, gather_rows_apply hN]

/-- THE LAW: with zero start values, a table `y = x · W` of finite entries and a scale that is one real `ν e` per
    update row, the row aggregate of `y` at `(n, j)` is the sum over the contracted axis of the row aggregate of `x` at
    `(n, k)` times `W[k, j]`. -/
theorem rows_aggregate_dot {N E C K w : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfS' : ScatterDims.WF ⟨2, ![N, K]⟩ ⟨2, ![E, 1]⟩ ⟨2, ![E, K]⟩ [1] [0] [0] 1)
    (wfG' : GatherDims.WF ⟨2, ![N, K]⟩ ⟨2, ![E, 1]⟩ ⟨2, ![E, K]⟩ [1] [0] [] [0] [] 1 ![1, K])
    (z : FVec Ideal ⟨2, ![N, C]⟩ .f32) (z' : FVec Ideal ⟨2, ![N, K]⟩ .f32) (hz : ∀ i, z i = 0) (hz' : ∀ i, z' i = 0)
    (x : FVec Ideal ⟨2, ![N, K]⟩ .f32) (W : FVec Ideal ⟨2, ![K, C]⟩ .f32) (y : FVec Ideal ⟨2, ![N, C]⟩ .f32)
    (hy : ∀ (p : Fin N) (j : Fin C), y (ix2 p j) = ∑ k : Fin K, x (ix2 p k) * W (ix2 k j))
    (hx : ∀ i, ∃ r : ℝ, x i = (r : EReal)) (hW : ∀ i, ∃ r : ℝ, W i = (r : EReal))
    (gidx sidx : IVec ⟨2, ![E, 1]⟩ w) (nu : FVec Ideal ⟨2, ![E, C]⟩ .f32) (nu' : FVec Ideal ⟨2, ![E, K]⟩ .f32)
    (ν : Fin E → ℝ) (hnu : ∀ e k, nu (ix2 e k) = (ν e : EReal)) (hnu' : ∀ e k, nu' (ix2 e k) = (ν e : EReal))
    (n : Fin N) (j : Fin C) :
    Host.scatterAdd (F := Ideal) (rowScatterDims N E C wfS) z sidx
        (mulf (F := Ideal) (Host.gather (rowGatherDims N E C wfG) y gidx) nu) (ix2 n j)
      = ∑ k : Fin K, Host.scatterAdd (F := Ideal) (rowScatterDims N E K wfS') z' sidx
          (mulf (F := Ideal) (Host.gather (rowGatherDims N E K wfG') x gidx) nu') (ix2 n k) * W (ix2 k j) := by
  choose xr hxr using hx
  choose Wr hWr using hW
  rw [rows_aggregate_apply hN wfS wfG z y gidx sidx nu n j,
    Finset.sum_congr rfl (fun k _ => congrArg (· * W (ix2 k j)) (rows_aggregate_apply hN wfS' wfG' z' x gidx sidx nu' n k))]
  simp only [hz, hz', hy, hnu, hnu', hxr, hWr]
  exact Cert.Gcn.agg_linear (fun e : Fin E => (sidx (ix2 e 0)).toInt = (n.val : Int))
    (fun e k => xr (ix2 ⟨min (gidx (ix2 e 0)).toInt.toNat (N - 1), by omega⟩ k)) (fun k => Wr (ix2 k j)) ν

end Idealize.ShloMosaic.RowGatherScatter

end
-- ==== Proof.GraphRead.lean ====
/-
  The law that joins the two programs, at this graph.
  `agg y` is a row scatter-add of gathered, weighted rows: an edge contributes to the row its target names (an id outside the
  table contributes nowhere), and what it contributes is its source's row (the id wrapped if negative, then clamped into the
  table) scaled by its weight. The weights are real numbers; so for real node features `x` and a real matrix `W` aggregation
  commutes with the product, `agg (x·W) [n, j] = ∑ₖ agg x [n, k] · W[k, j]` (the general law of row gathers and row
  scatter-adds, which rests on distributivity and an exchange of two finite sums over the reals), and the reference's result
  is the dense tail applied to `agg x`.
-/
import proofs.«147583_j16604343566383_2_alg».proof.Proof.GraphSpec
import proofs.«147583_j16604343566383_2_alg».proof.Proof.TailSpec
import proofs.«147583_j16604343566383_2_alg».proof.Proof.GraphCols
import proofs.«147583_j16604343566383_2_alg».proof.Proof.GraphFinite
import proofs.«147583_j16604343566383_2_alg».proof.Proof.LibRowGatherScatter
import proofs.«147583_j16604343566383_2_alg».proof.Proof.LibRowAggregate
import Idealize.ShloMosaic.Lib.ValueIdx
import Idealize.ShloMosaic.PureOps.Ideal.Laws

noncomputable section

namespace Cert.Gcn

open Idealize.ShloMosaic Idealize.ShloMosaic.ValueIdx Idealize.ShloMosaic.RowGatherScatter
open Cert.ReferenceIdeal Cert.ReferenceIdeal.Gen

/-- The table of zeros reads zero everywhere. -/
theorem zeros_all (i : S50000x256.Idx) :
    broadcastInDim S50000x256 ![] bcast_S_S50000x256 (constant (F := Ideal) S_ .f32 0x00000000#32) i = (0 : EReal) := by
  simp only [broadcastInDim, constant, Ideal.ofBits_def, Ideal.ofBits_zero_f32]

/-- AGGREGATION COMMUTES WITH THE PRODUCT, for real features and a real matrix: the general law of row gathers and row
    scatter-adds, at this graph's edge list and weights. -/
theorem agg_dot (x : FVec Ideal S50000x256 .f32) (ei : IVec S2x800000 32) (W : FVec Ideal S256x256 .f32)
    (hx : ∀ i, ∃ r : ℝ, x i = (r : EReal)) (hW : ∀ i, ∃ r : ℝ, W i = (r : EReal)) (n : Fin 50000) (j : Fin 256) :
    agg (F := Ideal) (Host.dotGeneral (F := Ideal) dot_S50000x256_S256x256_S50000x256_1_0_0_1_n_n none x W) ei (ix2 n j)
      = ∑ k : Fin 256, agg (F := Ideal) x ei (ix2 n k) * W (ix2 k j) := by
  choose ν hν using norm_real ei
  have hrecS : scatter_S50000x256_S850000x1_S850000x256_1_0_0_1
      = rowScatterDims 50000 850000 256 scatter_S50000x256_S850000x1_S850000x256_1_0_0_1_wf := rfl
  have hrecG : gather_S50000x256_S850000x1_S850000x256_1_0_n_n_0_1_1256
      = rowGatherDims 50000 850000 256 gather_S50000x256_S850000x1_S850000x256_1_0_n_n_0_1_1256_wf := rfl
  have hnu : ∀ (e : Fin 850000) (k : Fin 256),
      broadcastInDim S850000x256 ![0, 1] bcast_S850000x1_S850000x256_0_1 (col (norm (F := Ideal) ei)) (ix2 e k) = (ν e : EReal) :=
    fun e k => (spread_apply (norm (F := Ideal) ei) e k).trans (hν e)
  have hy : ∀ (p : Fin 50000) (j : Fin 256), Host.dotGeneral (F := Ideal) dot_S50000x256_S256x256_S50000x256_1_0_0_1_n_n none x W (ix2 p j)
      = ∑ k : Fin 256, x (ix2 p k) * W (ix2 k j) := fun p j => dot_apply x W p j
  unfold agg
  rw [hrecS, hrecG]
  have key := rows_aggregate_dot (N := 50000) (E := 850000) (C := 256) (K := 256) (by decide)
    scatter_S50000x256_S850000x1_S850000x256_1_0_0_1_wf gather_S50000x256_S850000x1_S850000x256_1_0_n_n_0_1_1256_wf
    scatter_S50000x256_S850000x1_S850000x256_1_0_0_1_wf gather_S50000x256_S850000x1_S850000x256_1_0_n_n_0_1_1256_wf
    (broadcastInDim S50000x256 ![] bcast_S_S50000x256 (constant (F := Ideal) S_ .f32 0x00000000#32))
    (broadcastInDim S50000x256 ![] bcast_S_S50000x256 (constant (F := Ideal) S_ .f32 0x00000000#32))
    zeros_all zeros_all x W
    (Host.dotGeneral (F := Ideal) dot_S50000x256_S256x256_S50000x256_1_0_0_1_n_n none x W)
    hy hx hW
    (col (wrap (srcs ei))) (col (dsts ei))
    (broadcastInDim S850000x256 ![0, 1] bcast_S850000x1_S850000x256_0_1 (col (norm (F := Ideal) ei)))
    (broadcastInDim S850000x256 ![0, 1] bcast_S850000x1_S850000x256_0_1 (col (norm (F := Ideal) ei)))
    ν
  exact key hnu hnu n j

/-- `relu (A1 + B1) + (A2 + B2)` against a table `Z`, read at an entry. -/
theorem relu_add_apply (A1 B1 Z A2 B2 : FVec Ideal S50000x256 .f32) (i : S50000x256.Idx) :
    addf (F := Ideal) (maximumf (addf A1 B1) Z) (addf A2 B2) i = max (A1 i + B1 i) (Z i) + (A2 i + B2 i) := rfl

/-- THE REFERENCE IS THE DENSE TAIL OF THE AGGREGATED FEATURES, for real features and real weight matrices; `r1`, `r2`
    are the biases as one-row tables. -/
theorem refOut_eq_tail (x : FVec Ideal S50000x256 .f32) (ei : IVec S2x800000 32) (W1 : FVec Ideal S256x256 .f32)
    (b1 : FVec Ideal S256 .f32) (W2 : FVec Ideal S256x256 .f32) (b2 : FVec Ideal S256 .f32)
    (hx : ∀ i, ∃ r : ℝ, x i = (r : EReal)) (hW1 : ∀ i, ∃ r : ℝ, W1 i = (r : EReal)) (hW2 : ∀ i, ∃ r : ℝ, W2 i = (r : EReal))
    (r1 r2 : (⟨2, ![1, 256]⟩ : Shape).Idx → EReal) (hr1 : ∀ j : Fin 256, r1 (ix2 0 j) = b1 (ix1 j))
    (hr2 : ∀ j : Fin 256, r2 (ix2 0 j) = b2 (ix1 j)) :
    refOut (F := Ideal) x ei W1 b1 W2 b2 = tail (agg (F := Ideal) x ei) W1 W2 r1 r2 := by
  funext i
  obtain ⟨n, j, rfl⟩ : ∃ (n : Fin 50000) (j : Fin 256), i = ix2 n j := ⟨i 0, i 1, eq_ix2 i⟩
  rw [tail_apply, hr1, hr2]
  unfold refOut
  rw [relu_add_apply]
  exact congrArg₂ (· + ·)
    (congrArg₂ max (congrArg₂ (· + ·) (agg_dot x ei W1 hx hW1 n j) (biasRows_apply b1 n j)) (zeros_all (ix2 n j)))
    (congrArg₂ (· + ·) (agg_dot x ei W2 hx hW2 n j) (biasRows_apply b2 n j))

end Cert.Gcn

end
-- ==== Proof.KerPayload.lean ====
/-
  The body's stored value, read entry by entry.

  At the exact (extended-real) reading every format change is the identity, a cast of a shape to itself is the
  identity, and a product of a 2000 × 256 block with a 256 × 256 matrix into a zero accumulator is, at entry (p, q),
  the plain sum over k of block[p, k] · matrix[k, q]. A bias row broadcast over the 2000 rows reads its one row at
  the column q. So the value the body stores is, at (p, q),
      max (∑ₖ a[p,k]·w1[k,q] + b1[0,q]) 0  +  (∑ₖ a[p,k]·w2[k,q] + b2[0,q]),
  which is the dense tail function of the five blocks the body loaded, at 2000 rows.
-/
import proofs.«147583_j16604343566383_2_alg».proof.Proof.TailSpec
import proofs.«147583_j16604343566383_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KerValue

open Idealize.ShloMosaic Idealize.ShloMosaic.ValueIdx Cert.KernelIdeal Cert.KernelIdeal.Gen

/-- The body's matrix product (rows × contraction times contraction × columns, contracting the block's second axis
    with the matrix's first) into the zero accumulator, read at entry (p, q): the sum over the contracted coordinate
    of the products of the entries. -/
theorem matmul_zero_apply {φ₁ φ₂ : FTy} (lhs : FVec Ideal S2000x256 φ₁) (rhs : FVec Ideal S256x256 φ₂)
    (p : Fin 2000) (q : Fin 256) :
    matmul (F := Ideal) dot_S2000x256_S256x256_S2000x256_1_0_0_1_n_n none lhs rhs
        (constant (F := Ideal) S2000x256 .f32 0x00000000#32) (ix2 p q)
      = ∑ k : Fin 256, lhs (ix2 p k) * rhs (ix2 k q) := by
  show FloatOps.matmul dot_S2000x256_S256x256_S2000x256_1_0_0_1_n_n none lhs rhs _ (ix2 p q) = _
  rw [Ideal.matmul_constant_zero_apply,
    ← Equiv.sum_comp (contrEquiv1 dot_S2000x256_S256x256_S2000x256_1_0_0_1_n_n 256 rfl rfl).symm]
  refine Finset.sum_congr rfl fun c _ => ?_
  have c2 := contrEquiv1_symm_val dot_S2000x256_S256x256_S2000x256_1_0_0_1_n_n 256 rfl rfl c
  have l2 : dot_S2000x256_S256x256_S2000x256_1_0_0_1_n_n.lhsIdx (ix2 p q)
      ((contrEquiv1 _ 256 rfl rfl).symm c) = ix2 p c := by
    funext ax; apply Fin.ext
    match ax with
    | ⟨0, _⟩ => simp [DotDims.lhsIdx, dot_S2000x256_S256x256_S2000x256_1_0_0_1_n_n]; rfl
    | ⟨1, _⟩ => simp [DotDims.lhsIdx, dot_S2000x256_S256x256_S2000x256_1_0_0_1_n_n]; exact c2
  have r2 : dot_S2000x256_S256x256_S2000x256_1_0_0_1_n_n.rhsIdx (ix2 p q)
      ((contrEquiv1 _ 256 rfl rfl).symm c) = ix2 c q := by
    funext ax; apply Fin.ext
    match ax with
    | ⟨0, _⟩ => simp [DotDims.rhsIdx, dot_S2000x256_S256x256_S2000x256_1_0_0_1_n_n]; exact c2
    | ⟨1, _⟩ => simp [DotDims.rhsIdx, dot_S2000x256_S256x256_S2000x256_1_0_0_1_n_n]; rfl
  rw [l2, r2]

/-- THE PAYLOAD IS THE TAIL FUNCTION of the five loaded blocks (2000 rows). -/
theorem pay_eq (x0 : Vec Ideal S2000x256 .f32) (x1 x2 : Vec Ideal S256x256 .f32) (x3 x4 : Vec Ideal S1x256 .f32) :
    Cert.KernelIdeal.Gen.k0_pay1 (F := Ideal) x0 x1 x2 x3 x4 = Cert.Gcn.tail x0 x1 x2 x3 x4 := by
  funext j
  obtain ⟨p, q, rfl⟩ : ∃ (p : Fin 2000) (q : Fin 256), j = ix2 p q := ⟨j 0, j 1, eq_ix2 j⟩
  unfold Gen.k0_pay1
  rw [Cert.Gcn.tail_apply]
  simp only [shapeCast_self]
  show max (matmul (F := Ideal) dot_S2000x256_S256x256_S2000x256_1_0_0_1_n_n none _ _ _ (ix2 p q)
        + broadcastTo S2000x256 x3 broadcasts_S1x256_S2000x256 (ix2 p q)) (Ideal.ofBits .f32 0x00000000#32)
      + (matmul (F := Ideal) dot_S2000x256_S256x256_S2000x256_1_0_0_1_n_n none _ _ _ (ix2 p q)
        + broadcastTo S2000x256 x4 broadcasts_S1x256_S2000x256 (ix2 p q)) = _
  rw [matmul_zero_apply, matmul_zero_apply, broadcastTo_1b_ab_apply, broadcastTo_1b_ab_apply, Ideal.ofBits_zero_f32]
  rfl

end Cert.KernelIdeal.KerValue

end
-- ==== Proof.KerArray.lean ====
/-
  From the blocks to the whole output array.

  The launch runs 25 grid points; point t loads rows 2000·t … 2000·t + 1999 of the aggregate (all 256 columns), the
  two whole 256 × 256 weight matrices and the two whole bias rows, and writes back rows 2000·t … 2000·t + 1999 of the
  output. Entry (p, q) of what point t writes is the dense tail function of its five blocks, and the tail function at
  a row only reads that row of the aggregate: so what point t writes is rows 2000·t … of the tail function of the five
  WHOLE arrays. Row r of the output lies in point ⌊r / 2000⌋'s block, the 25 blocks cover all 50000 rows and every
  block spans all 256 columns, so after the run the output array is the tail function of the five arrays the region
  finds.
-/
import proofs.«147583_j16604343566383_2_alg».proof.Proof.KerPayload
import proofs.«147583_j16604343566383_2_alg».proof.Proof.Gen.KernelIdeal.Value

noncomputable section

open scoped BigOperators

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The body's accesses start at the origin of its buffers. -/
theorem origin : (![0, 0] : Fin 2 → Nat) = fun _ => 0 := funext fun a => by fin_cases a <;> rfl

/-- The printed index maps over the 25 grid points: the aggregate's and the output's row-block index is the point's
    number, their column-block index 0; the weights and bias rows sit at block (0, 0) throughout. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The tail function at one entry only reads that entry's row of the aggregate: if a block `a` holds rows
    `o … o + 1999` of `A`, the tail function of the block at `y` is that of the array at the entry `o` rows below. -/
theorem tail_rows (A : S50000x256.Idx → EReal) (a : S2000x256.Idx → EReal) (W1 W2 : S256x256.Idx → EReal)
    (b1 b2 : S1x256.Idx → EReal) (o : Nat)
    (ha : ∀ (p : Fin 2000) (k : Fin 256) (r : Fin 50000), r.val = o + p.val → a (ix2 p k) = A (ix2 r k))
    (y : S2000x256.Idx) (i : S50000x256.Idx) (hi0 : (i 0).val = o + (y 0).val) (hi1 : (i 1).val = (y 1).val) :
    Cert.Gcn.tail a W1 W2 b1 b2 y = Cert.Gcn.tail A W1 W2 b1 b2 i := by
  obtain ⟨p, q, rfl⟩ : ∃ (p : Fin 2000) (q : Fin 256), y = ix2 p q := ⟨y 0, y 1, eq_ix2 y⟩
  obtain ⟨r, s, rfl⟩ : ∃ (r : Fin 50000) (s : Fin 256), i = ix2 r s := ⟨i 0, i 1, eq_ix2 i⟩
  obtain rfl : s = q := Fin.ext hi1
  rw [Cert.Gcn.tail_apply, Cert.Gcn.tail_apply]
  have e : ∀ k : Fin 256, a (ix2 p k) = A (ix2 r k) := fun k => ha p k r hi0
  simp only [e]

/-! ## Each window's block at a point, as entries of its array -/

/-- The aggregate's block at point `t` is rows `2000·t … 2000·t + 1999` of the aggregate, all columns. -/
theorem agg_block (c : Dev nD) (t : Fin cfg0.N) (p : Fin 2000) (k : Fin 256) (r : Fin 50000)
    (hr : r.val = 2000 * t.val + p.val) :
    (iblk m c 0 t : Vec Ideal S2000x256 .f32) (ix2 p k) = (V m c main_v42 : S50000x256.Idx → EReal) (ix2 r k) := by
  obtain ⟨e0, e1, -⟩ := index_facts t
  unfold iblk
  rw [View.read_apply, cast_eq]
  refine congrArg (V m c main_v42) ?_
  funext a; apply Fin.ext
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The first weight matrix's block at every point is the whole matrix. -/
theorem w1_block (c : Dev nD) (t : Fin cfg0.N) :
    (iblk m c 1 t : Vec Ideal S256x256 .f32) = (V m c main_arg2 : S256x256.Idx → EReal) := by
  obtain ⟨-, -, e0, e1, -⟩ := index_facts t
  funext x
  unfold iblk
  rw [View.read_apply, cast_eq]
  refine congrArg (V m c main_arg2) ?_
  funext a; apply Fin.ext
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

/-- The second weight matrix's block at every point is the whole matrix. -/
theorem w2_block (c : Dev nD) (t : Fin cfg0.N) :
    (iblk m c 2 t : Vec Ideal S256x256 .f32) = (V m c main_arg4 : S256x256.Idx → EReal) := by
  obtain ⟨-, -, -, -, e0, e1, -⟩ := index_facts t
  funext x
  unfold iblk
  rw [View.read_apply, cast_eq]
  refine congrArg (V m c main_arg4) ?_
  funext a; apply Fin.ext
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega

/-- The first bias row's block at every point is the whole row. -/
theorem b1_block (c : Dev nD) (t : Fin cfg0.N) :
    (iblk m c 3 t : Vec Ideal S1x256 .f32) = (V m c main_v43 : S1x256.Idx → EReal) := by
  obtain ⟨-, -, -, -, -, -, e0, e1, -⟩ := index_facts t
  funext x
  unfold iblk
  rw [View.read_apply, cast_eq]
  refine congrArg (V m c main_v43) ?_
  funext a; apply Fin.ext
  match a with
  | ⟨0, _⟩ => show win0_3.index t (0 : Fin 2) * 1 + 1 * (x 0).val = (x 0).val; rw [e0]; omega
  | ⟨1, _⟩ => show win0_3.index t (1 : Fin 2) * 256 + 1 * (x 1).val = (x 1).val; rw [e1]; omega

/-- The second bias row's block at every point is the whole row. -/
theorem b2_block (c : Dev nD) (t : Fin cfg0.N) :
    (iblk m c 4 t : Vec Ideal S1x256 .f32) = (V m c main_v44 : S1x256.Idx → EReal) := by
  obtain ⟨-, -, -, -, -, -, -, -, e0, e1, -⟩ := index_facts t
  funext x
  unfold iblk
  rw [View.read_apply, cast_eq]
  refine congrArg (V m c main_v44) ?_
  funext a; apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-! ## What a point writes back, and the whole array -/

/-- What the body leaves in the output's buffer, from its five loaded blocks: their tail function. -/
theorem out_eq (x0 : Vec Ideal S2000x256 .f32) (x1 x2 : Vec Ideal S256x256 .f32) (x3 x4 : Vec Ideal S1x256 .f32) :
    Gen.out0_5 (F := Ideal) x0 x1 x2 x3 x4 = Cert.Gcn.tail x0 x1 x2 x3 x4 := by
  unfold Gen.out0_5
  rw [View.canon_unit_zero origin]
  simp only [View.ld_unit_zero (S := S2000x256) origin, View.ld_unit_zero (S := S256x256) origin,
    View.ld_unit_zero (S := S1x256) origin]
  exact pay_eq x0 x1 x2 x3 x4

/-- What point `t` writes back is the tail function of the aggregate's block at `t` and the four whole arrays. -/
theorem flushed_tail (c : Dev nD) (t : Fin cfg0.N) :
    (dats m 0 c).flushed 5 t = (cfg0.win 5).cut (grid0.coords t)
      (Cert.Gcn.tail (iblk m c 0 t) (V m c main_arg2) (V m c main_arg4) (V m c main_v43) (V m c main_v44)) := by
  rw [Value.flushed5, out_eq, w1_block m c t, w2_block m c t, b1_block m c t, b2_block m c t]

/-- WHAT POINT `t` WRITES BACK is block `t` of the tail function of the five arrays as the region finds them: the
    block's entry `y` is the array's entry `2000·t` rows below, and the tail function there reads that row. -/
theorem flushed_eq (c : Dev nD) (t : Fin cfg0.N) :
    (dats m 0 c).flushed 5 t = ((cfg0.win 5).blk t).view.read (Elt Ideal)
      (Cert.Gcn.tail (V m c main_v42) (V m c main_arg2) (V m c main_arg4) (V m c main_v43) (V m c main_v44)) := by
  rw [flushed_tail]
  obtain ⟨-, -, -, -, -, -, -, -, -, -, e0, e1⟩ := index_facts t
  funext y
  rw [View.read_apply]
  refine Eq.trans ?_ (cast_eq _ _).symm
  refine tail_rows _ _ _ _ _ _ (2000 * t.val) (fun p k r hr => agg_block m c t p k r hr) _ _ ?_ ?_
  · show win0_5.index t (0 : Fin 2) * 2000 + 1 * (y 0).val = 2000 * t.val + (y 0).val; rw [e0]; omega
  · show win0_5.index t (1 : Fin 2) * 256 + 1 * (y 1).val = (y 1).val; rw [e1]; omega

/-- An index of the output array is in point `t`'s block iff each coordinate is in the block's range on its axis. -/
theorem mem_block (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v45).slice (win0_5.rect t)).set ↔ _
  rw [View.set_slice_whole, Rect.mem_set_unit]
  exact Iff.rfl

/-- Every entry of the output lies in some point's block: row `r` in point `⌊r / 2000⌋`'s. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, e0, e1⟩ := index_facts t
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 256 ≤ (i 1).val ∧ (i 1).val < win0_5.index t (1 : Fin 2) * 256 + 256
    rw [e1]; omega

/-- THE OUTPUT ARRAY after the run is the tail function of the five arrays the region finds. -/
theorem final5 (c : Dev nD) :
    (dats m 0 c).arrAt 5 cfg0.N
      = Cert.Gcn.tail (V m c main_v42) (V m c main_arg2) (V m c main_arg4) (V m c main_v43) (V m c main_v44) :=
  (dats m 0 c).arrAt_eq_of_cover 5 _ (fun t _ => flushed_eq m c t) cover

end Cert.KernelIdeal.KerValue

end
-- ==== Proof.KerHost.lean ====
/-
  WHAT THE HOST OPERATIONS BEFORE THE REGION LEAVE IN THE ARRAYS THE REGION'S WINDOWS READ.

  Before its one region the kernel program runs 58 host operations on the argument arrays. Three of their results are
  read by the region's windows:

  * the array of window 0 is the weighted neighbourhood sum of the node features: with the self loops appended to the
    edge list, row `n` is the sum, over the edges whose target is `n`, of the source's feature row scaled by the
    edge's weight `dinv(source) · dinv(target)`, `dinv` the inverse square root of the in-degree where it is positive and
    zero elsewhere. Operation for operation this is the same composition of array operations as `Cert.Gcn.agg` of the
    features and the edge list (`V_agg`): the two texts differ only in the names of the shape, broadcast, gather and
    scatter constants, which are the same literals, and in identity transports of an array between a buffer's declared
    type and the equal literal type (`toBuf_v14` … `ofBuf_toBuf_c1`);

  * the arrays of windows 3 and 4 are the two bias vectors `[256]` recast as one-row tables `[1, 256]`: entry `(0, j)`
    is the vector's entry `j` (`V_b1`, `V_b2`).

  Everything is at the exact instance: floats are extended reals.
-/
import proofs.«147583_j16604343566383_2_alg».proof.Proof.Gen.KernelIdeal.Frame
import proofs.«147583_j16604343566383_2_alg».proof.Proof.GraphSpec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.KerValue

open Cert.KernelIdeal Cert.KernelIdeal.Gen Idealize.ShloMosaic Idealize.ShloMosaic.ValueIdx Idealize.ShloMosaic.TcCoe
  Idealize.SL.Sem Idealize.ShloMosaic.StableHlo

variable (m : (ℓ : Loc nD τ sig) → Buf (Elt Ideal) ℓ) (c : Dev nD)

/-! ## Identity transports

A value passed into or out of the called function is carried between `T.Contents` at the value's type `T` and
the contents of the buffer that holds it, along the equation "the buffer's declared type is `T`". For these literal
buffers both types are the same by computation, so each transport is the identity; stated over a variable array. -/

/-- Contents of a buffer whose declared type is literally the value's type: the transport is the identity. -/
theorem toBuf_v14 (v : FVec Ideal S50000 .f32) :
    (TRef.of main_v14 : TRef sig ⟨S50000, .f32⟩).toBuf (Val := Elt Ideal) v = v := rfl
theorem ofBuf_v12 (v : IVec S50000 1) :
    (TRef.of main_v12 : TRef sig ⟨S50000, .i1⟩).ofBuf (Val := Elt Ideal) v = v := rfl
theorem ofBuf_v13 (v : FVec Ideal S50000 .f32) :
    (TRef.of main_v13 : TRef sig ⟨S50000, .f32⟩).ofBuf (Val := Elt Ideal) v = v := rfl
theorem ofBuf_cst2 (v : FVec Ideal S_ .f32) :
    (TRef.of main_cst_2 : TRef sig ⟨S_, .f32⟩).ofBuf (Val := Elt Ideal) v = v := rfl
theorem ofBuf_toBuf_c0 (v : FVec Ideal S_ .f32) :
    (TRef.of main_call0_v0 : TRef sig ⟨S_, .f32⟩).ofBuf (Val := Elt Ideal)
      ((TRef.of main_call0_v0 : TRef sig ⟨S_, .f32⟩).toBuf (Val := Elt Ideal) v) = v := rfl
theorem ofBuf_toBuf_c1 (v : FVec Ideal S50000 .f32) :
    (TRef.of main_call0_v1 : TRef sig ⟨S50000, .f32⟩).ofBuf (Val := Elt Ideal)
      ((TRef.of main_call0_v1 : TRef sig ⟨S50000, .f32⟩).toBuf (Val := Elt Ideal) v) = v := rfl

/-! ## The aggregate of the node features -/

set_option maxRecDepth 65536 in
/-- THE ARRAY OF WINDOW 0: the host operations' result `%42` is `Cert.Gcn.agg` of the node features (argument 0) and
    the edge list (argument 1). Reading each operation's result at its own buffer and every other buffer unchanged
    composes the 58 operations into one term over the two arguments; with the identity transports removed it is the
    term `Cert.Gcn.agg` unfolds to, up to the names of equal literal constants. -/
theorem V_agg : (V m c main_v42 : S50000x256.Idx → EReal)
    = Cert.Gcn.agg (F := Ideal) (m ((c : Thread nD τ).loc main_arg0)) (m ((c : Thread nD τ).loc main_arg1)) := by
  dsimp only [Gen.V]
  simp only [Gen.hostOps0, Gen.hostOps0_1, Gen.hostOps0_2, List.flatten_cons, List.flatten_nil, List.append_nil,
    List.cons_append, List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [toBuf_v14, ofBuf_v12, ofBuf_v13, ofBuf_toBuf_c1, ofBuf_toBuf_c0, ofBuf_cst2]
  rfl

/-! ## The two bias rows -/

/-- The first bias as a one-row table: window 3's array is the `[256]` argument recast to `[1, 256]`, so its entry
    `(0, j)` is the argument's entry `j`. -/
theorem V_b1 (j : Fin 256) :
    (V m c main_v43 : S1x256.Idx → EReal) (ix2 0 j) = m ((c : Thread nD τ).loc main_arg3) (ix1 j) := by
  have e : (V m c main_v43 : S1x256.Idx → EReal)
      = shapeCast S1x256 (m ((c : Thread nD τ).loc main_arg3) : S256.Idx → EReal) shapeCasts_S256_S1x256 := by
    dsimp only [Gen.V]
    simp only [Gen.hostOps0, Gen.hostOps0_1, Gen.hostOps0_2, List.flatten_cons, List.flatten_nil, List.append_nil,
      List.cons_append, List.nil_append]
    after_results_simp
    repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
    rfl
  rw [e]
  exact shapeCast_a_1a_apply _ _ 0 j

/-- The second bias likewise: entry `(0, j)` of the recast array is the argument's entry `j`. -/
theorem V_b2 (j : Fin 256) :
    (V m c main_v44 : S1x256.Idx → EReal) (ix2 0 j) = m ((c : Thread nD τ).loc main_arg5) (ix1 j) := by
  have e : (V m c main_v44 : S1x256.Idx → EReal)
      = shapeCast S1x256 (m ((c : Thread nD τ).loc main_arg5) : S256.Idx → EReal) shapeCasts_S256_S1x256 := by
    dsimp only [Gen.V]
    simp only [Gen.hostOps0, Gen.hostOps0_1, Gen.hostOps0_2, List.flatten_cons, List.flatten_nil, List.append_nil,
      List.cons_append, List.nil_append]
    after_results_simp
    repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))
    rfl
  rw [e]
  exact shapeCast_a_1a_apply _ _ 0 j

end Cert.KernelIdeal.KerValue

end
-- ==== Proof.lean ====
/-
  One graph-convolution layer with two branches, kernel against reference, on the extended reals.

  Both programs take node features x (50000 × 256), an edge list (2 × 800000), two weight matrices W1, W2 (256 × 256)
  and two bias vectors b1, b2 (256). With a self loop added at every node and each edge weighted by the inverse square
  roots of the degrees of its endpoints, let agg be the weighted neighbourhood sum of a table's rows. The reference
  computes   relu (agg (x·W1) + b1) + (agg (x·W2) + b2).   The kernel's program aggregates first, on the host, and then
  one launch of 25 grid points applies the dense tail   relu (a·W1 + b1) + (a·W2 + b2)   to the aggregate a = agg x,
  2000 rows at a time.

  The two agree because agg is linear in the table: a row of agg (x·W) is a finite sum of scaled rows of x·W, and
  when every entry involved is a real number the scaling and the sum over edges commute with the sum over the
  contracted coordinate, so agg (x·W) = (agg x)·W. The entries are real numbers by the precondition (every float
  argument is finite) and because an edge weight is always real. On the kernel's side, what a grid point writes is
  the dense tail of its five blocks; the tail at a row reads only that row of the aggregate, the 25 row blocks tile
  the 50000 rows, and so the output array ends as the dense tail of the whole arrays the launch finds, the first of
  which the host part left at agg x and the bias rows at b1, b2 as 1 × 256 tables.

  The three frame claims are the generated frame runs (the reference's from its run's post); the idealization
  rewrote no operation, so its claim is trivial; the algebraic claim names the common value, the dense tail of
  (agg x, W1, W2, b1, b2), and shows each run ends there.
-/
import proofs.«147583_j16604343566383_2_alg».proof.Defs
import proofs.«147583_j16604343566383_2_alg».proof.Proof.Gen.Kernel
import proofs.«147583_j16604343566383_2_alg».proof.Proof.Gen.Kernel.Skeleton
import proofs.«147583_j16604343566383_2_alg».proof.Proof.Gen.Kernel.Launch
import proofs.«147583_j16604343566383_2_alg».proof.Proof.Gen.Kernel.Points
import proofs.«147583_j16604343566383_2_alg».proof.Proof.Gen.Kernel.Frame
import proofs.«147583_j16604343566383_2_alg».proof.Proof.Gen.KernelIdeal
import proofs.«147583_j16604343566383_2_alg».proof.Proof.Gen.KernelIdeal.Skeleton
import proofs.«147583_j16604343566383_2_alg».proof.Proof.Gen.KernelIdeal.Launch
import proofs.«147583_j16604343566383_2_alg».proof.Proof.Gen.KernelIdeal.Points
import proofs.«147583_j16604343566383_2_alg».proof.Proof.Gen.KernelIdeal.Frame
import proofs.«147583_j16604343566383_2_alg».proof.Proof.Gen.ReferenceIdeal
import proofs.«147583_j16604343566383_2_alg».proof.Proof.Gen.Pre_finite_inputs
import proofs.«147583_j16604343566383_2_alg».proof.Proof.Gen.KernelIdeal.Value
import proofs.«147583_j16604343566383_2_alg».proof.Proof.RefRun
import proofs.«147583_j16604343566383_2_alg».proof.Proof.GraphSpec
import proofs.«147583_j16604343566383_2_alg».proof.Proof.FiniteIn
import proofs.«147583_j16604343566383_2_alg».proof.Proof.GraphRead
import proofs.«147583_j16604343566383_2_alg».proof.Proof.KerArray
import proofs.«147583_j16604343566383_2_alg».proof.Proof.KerHost
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run's post, with the clause on the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- Reading the kernel on the extended reals rewrote no operation, so there is nothing to preserve. -/
theorem preserves : Cert.preserves_Kernel_KernelIdeal := trivial

/-- On the extended reals, from memories that agree on the six arguments, both programs end with the dense tail of the
    aggregated features: the kernel because its host part aggregates and its blocks tile the tail function of whole
    arrays, the reference because, its inputs being real numbers, the aggregation commutes with the two products. -/
theorem algebraic : Cert.algebraic_KernelIdeal_ReferenceIdeal := by
  intro m ρ m' ρ' hpre hagree
  refine ⟨fun c => Cert.Gcn.tail
      (Cert.Gcn.agg (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (Cert.KernelIdeal.Gen.V m c Cert.KernelIdeal.main_v43) (Cert.KernelIdeal.Gen.V m c Cert.KernelIdeal.main_v44), ?_, ?_⟩
  · refine (θ_run Cert.KernelIdeal.defs _ _).mono (fun r h c => ⟨(h c).1.trans ?_, (h c).2⟩)
      (Cert.KernelIdeal.Value.run_blocks m ρ)
    rw [Cert.KernelIdeal.KerValue.final5, Cert.KernelIdeal.KerValue.V_agg, Cert.KernelIdeal.Gen.V_main_arg2,
      Cert.KernelIdeal.Gen.V_main_arg4]
  · refine (θ_run Cert.ReferenceIdeal.defs _ _).mono (fun r h c => ⟨(h c).1.trans ?_, (h c).2⟩)
      (Cert.ReferenceIdeal.ValueP.run (F := Ideal) m' ρ')
    rw [Cert.Gcn.res_eq, (hagree c).1, (hagree c).2.1, (hagree c).2.2.1, (hagree c).2.2.2.1, (hagree c).2.2.2.2.1,
      (hagree c).2.2.2.2.2]
    obtain ⟨hx, hW1, hW2⟩ := Cert.Gcn.finite_of_pre _ _ _ _ _ _ (hpre c)
    exact Cert.Gcn.refOut_eq_tail _ _ _ _ _ _ hx hW1 hW2 _ _ (Cert.KernelIdeal.KerValue.V_b1 m c)
      (Cert.KernelIdeal.KerValue.V_b2 m c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
